-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S800000 : Shape := ⟨1, ![800000]⟩
abbrev S160000 : Shape := ⟨1, ![160000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S200000x128 .f32) (main_arg1 : IVec S800000 32) (main_arg2 : IVec S800000 32) (main_arg3 : IVec S160000 32) (main_arg4 : IVec S160000 32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_v13 main_v16
-- ==== Kernel.lean ====
abbrev S200000x128 : Shape := ⟨2, ![200000, 128]⟩
abbrev S800000 : Shape := ⟨1, ![800000]⟩
abbrev S160000 : Shape := ⟨1, ![160000]⟩
abbrev S128x128 : Shape := ⟨2, ![128, 128]⟩
abbrev S128 : Shape := ⟨1, ![128]⟩
abbrev S4000x128 : Shape := ⟨2, ![4000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩
abbrev S5000x128 : Shape := ⟨2, ![5000, 128]⟩
abbrev S160000x1 : Shape := ⟨2, ![160000, 1]⟩
abbrev S160000x128 : Shape := ⟨2, ![160000, 128]⟩
abbrev S10000x128 : Shape := ⟨2, ![10000, 128]⟩
abbrev S10000 : Shape := ⟨1, ![10000]⟩
abbrev S10000x1 : Shape := ⟨2, ![10000, 1]⟩
abbrev S2000x128 : Shape := ⟨2, ![2000, 128]⟩

abbrev nBuf : Space → Nat
  | .hbm => 66
  | .vmem => 26
  | .smem => 0
  | _ => 0

abbrev bufTy : (tb : Table) → Fin (tcTables nBuf tb) → BufTy
  | .hbm, ⟨0, _⟩ => ⟨S200000x128, .f32⟩
  | .hbm, ⟨1, _⟩ => ⟨S800000, .i32⟩
  | .hbm, ⟨2, _⟩ => ⟨S800000, .i32⟩
  | .hbm, ⟨3, _⟩ => ⟨S160000, .i32⟩
  | .hbm, ⟨4, _⟩ => ⟨S160000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S200000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S160000x1, .i32⟩
  | .hbm, ⟨47, _⟩ => ⟨S160000x128, .f32⟩
  | .hbm, ⟨48, _⟩ => ⟨S_, .f32⟩
  | .hbm, ⟨49, _⟩ => ⟨S10000x128, .f32⟩
  | .hbm, ⟨50, _⟩ => ⟨S160000x1, .i32⟩
  | .hbm, ⟨51, _⟩ => ⟨S10000x128, .f32⟩
  | .hbm, ⟨52, _⟩ => ⟨S_, .f32⟩
  | .hbm, ⟨53, _⟩ => ⟨S160000, .f32⟩
  | .hbm, ⟨54, _⟩ => ⟨S_, .f32⟩
  | .hbm, ⟨55, _⟩ => ⟨S10000, .f32⟩
  | .hbm, ⟨56, _⟩ => ⟨S160000x1, .i32⟩
  | .hbm, ⟨57, _⟩ => ⟨S10000, .f32⟩
  | .hbm, ⟨58, _⟩ => ⟨S_, .f32⟩
  | .hbm, ⟨59, _⟩ => ⟨S10000, .f32⟩
  | .hbm, ⟨60, _⟩ => ⟨S10000, .f32⟩
  | .hbm, ⟨61, _⟩ => ⟨S10000x1, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S10000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S200000x128_S50000x128_0_0 : S200000x128.Slices ![0, 0] S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S_S160000 : S_.BroadcastsInDim S160000 (![] : Fin 0 → Fin S160000.rank)
  bcast_S160000_S160000x1_0 : S160000.BroadcastsInDim S160000x1 (![0] : Fin 1 → Fin S160000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  slices_S50000x128_S10000x128_0_0 : S50000x128.Slices ![0, 0] S10000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  dot_S4000x128_S128x128_S4000x128_1_0_0_1_n_n_wf : DotDims.WF S4000x128 S128x128 S4000x128 [1] [0] [0] [1] [] []
  gather_S200000x128_S800000x1_S800000x128_1_0_n_n_0_1_1128_wf : GatherDims.WF S200000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S160000x1_S160000x128_1_0_n_n_0_1_1128_wf : GatherDims.WF S50000x128 S160000x1 S160000x128 [1] [0] [] [0] [] 1 ![1, 128]
  scatter_S10000x128_S160000x1_S160000x128_1_0_0_1_wf : ScatterDims.WF S10000x128 S160000x1 S160000x128 [1] [0] [0] 1
  scatter_S10000_S160000x1_S160000_n_0_0_1_wf : ScatterDims.WF S10000 S160000x1 S160000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S10000x128.size a
  hwx2_1 : ∀ i : grid2.Coords, EltTy.bits .f32 = 32 ∨ (Rect.block (s := S10000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S10000x128.size a
  hwx2_6 : ∀ i : grid2.Coords, EltTy.bits .f32 = 32 ∨ (Rect.block (s := S10000x128) S2000x128.size (cc2_transform_6 i) (hinb2_6 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S160000x1_S160000x128_1_0_n_n_0_1_1128 : GatherDims S50000x128 S160000x1 S160000x128 where
  offsetDims := [1]
  collapsedSliceDims := [0]
  operandBatchingDims := []
  startIndicesBatchingDims := []
  startIndexMap := [0]
  indexVectorDim := 1
  sliceSizes := ![1, 128]
  wf := gather_S50000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S200000x128 : Shape := ⟨2, ![200000, 128]⟩
abbrev S800000 : Shape := ⟨1, ![800000]⟩
abbrev S160000 : Shape := ⟨1, ![160000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩
abbrev S160000x1 : Shape := ⟨2, ![160000, 1]⟩
abbrev S160000x128 : Shape := ⟨2, ![160000, 128]⟩
abbrev S10000x128 : Shape := ⟨2, ![10000, 128]⟩
abbrev S10000 : Shape := ⟨1, ![10000]⟩
abbrev S10000x1 : Shape := ⟨2, ![10000, 1]⟩

abbrev nBuf : Space → Nat
  | .hbm => 91
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S800000, .i32⟩
  | .hbm, ⟨2, _⟩ => ⟨S800000, .i32⟩
  | .hbm, ⟨3, _⟩ => ⟨S160000, .i32⟩
  | .hbm, ⟨4, _⟩ => ⟨S160000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S200000x128, .f32⟩
  | .hbm, ⟨12, _⟩ => ⟨S1x128, .f32⟩
  | .hbm, ⟨13, _⟩ => ⟨S200000x128, .f32⟩
  | .hbm, ⟨14, _⟩ => ⟨S200000x128, .f32⟩
  | .hbm, ⟨15, _⟩ => ⟨S_, .f32⟩
  | .hbm, ⟨16, _⟩ => ⟨S200000x128, .f32⟩
  | .hbm, ⟨17, _⟩ => ⟨S200000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S160000, .i32⟩
  | .hbm, ⟨58, _⟩ => ⟨S160000, .i1⟩
  | .hbm, ⟨59, _⟩ => ⟨S_, .i32⟩
  | .hbm, ⟨60, _⟩ => ⟨S160000, .i32⟩
  | .hbm, ⟨61, _⟩ => ⟨S160000, .i32⟩
  | .hbm, ⟨62, _⟩ => ⟨S160000, .i32⟩
  | .hbm, ⟨63, _⟩ => ⟨S160000x1, .i32⟩
  | .hbm, ⟨64, _⟩ => ⟨S160000x128, .f32⟩
  | .hbm, ⟨65, _⟩ => ⟨S_, .f32⟩
  | .hbm, ⟨66, _⟩ => ⟨S10000x128, .f32⟩
  | .hbm, ⟨67, _⟩ => ⟨S160000x1, .i32⟩
  | .hbm, ⟨68, _⟩ => ⟨S10000x128, .f32⟩
  | .hbm, ⟨69, _⟩ => ⟨S_, .f32⟩
  | .hbm, ⟨70, _⟩ => ⟨S160000, .f32⟩
  | .hbm, ⟨71, _⟩ => ⟨S_, .f32⟩
  | .hbm, ⟨72, _⟩ => ⟨S10000, .f32⟩
  | .hbm, ⟨73, _⟩ => ⟨S160000x1, .i32⟩
  | .hbm, ⟨74, _⟩ => ⟨S10000, .f32⟩
  | .hbm, ⟨75, _⟩ => ⟨S_, .f32⟩
  | .hbm, ⟨76, _⟩ => ⟨S10000, .f32⟩
  | .hbm, ⟨77, _⟩ => ⟨S10000, .f32⟩
  | .hbm, ⟨78, _⟩ => ⟨S10000x1, .f32⟩
  | .hbm, ⟨79, _⟩ => ⟨S10000x128, .f32⟩
  | .hbm, ⟨80, _⟩ => ⟨S10000x128, .f32⟩
  | .hbm, ⟨81, _⟩ => ⟨S10000x128, .f32⟩
  | .hbm, ⟨82, _⟩ => ⟨S10000x128, .f32⟩
  | .hbm, ⟨83, _⟩ => ⟨S1x128, .f32⟩
  | .hbm, ⟨84, _⟩ => ⟨S10000x128, .f32⟩
  | .hbm, ⟨85, _⟩ => ⟨S10000x128, .f32⟩
  | .hbm, ⟨86, _⟩ => ⟨S10000x128, .f32⟩
  | .hbm, ⟨87, _⟩ => ⟨S10000x128, .f32⟩
  | .hbm, ⟨88, _⟩ => ⟨S1x128, .f32⟩
  | .hbm, ⟨89, _⟩ => ⟨S10000x128, .f32⟩
  | .hbm, ⟨90, _⟩ => ⟨S10000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S200000x128_S50000x128_0_0 : S200000x128.Slices ![0, 0] S50000x128
  bcast_S1x128_S50000x128_0_1 : S1x128.BroadcastsInDim S50000x128 (![0, 1] : Fin 2 → Fin S50000x128.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  slices_S50000x128_S10000x128_0_0 : S50000x128.Slices ![0, 0] S10000x128
  bcast_S1x128_S10000x128_0_1 : S1x128.BroadcastsInDim S10000x128 (![0, 1] : Fin 2 → Fin S10000x128.rank)
  dot_S200000x128_S128x128_S200000x128_1_0_0_1_n_n_wf : DotDims.WF S200000x128 S128x128 S200000x128 [1] [0] [0] [1] [] []
  gather_S200000x128_S800000x1_S800000x128_1_0_n_n_0_1_1128_wf : GatherDims.WF S200000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S160000x1_S160000x128_1_0_n_n_0_1_1128_wf : GatherDims.WF S50000x128 S160000x1 S160000x128 [1] [0] [] [0] [] 1 ![1, 128]
  scatter_S10000x128_S160000x1_S160000x128_1_0_0_1_wf : ScatterDims.WF S10000x128 S160000x1 S160000x128 [1] [0] [0] 1
  scatter_S10000_S160000x1_S160000_n_0_0_1_wf : ScatterDims.WF S10000 S160000x1 S160000 [] [0] [0] 1
  dot_S10000x128_S128x128_S10000x128_1_0_0_1_n_n_wf : DotDims.WF S10000x128 S128x128 S10000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S160000x1_S160000x128_1_0_n_n_0_1_1128 : GatherDims S50000x128 S160000x1 S160000x128 where
  offsetDims := [1]
  collapsedSliceDims := [0]
  operandBatchingDims := []
  startIndicesBatchingDims := []
  startIndexMap := [0]
  indexVectorDim := 1
  sliceSizes := ![1, 128]
  wf := gather_S50000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelRun.lean ====
/-
  The idealized kernel's run, with its result named.

  The program is three kernel regions with two stretches of host operations between them. Every weakly fair
  execution terminates without a fault, and at the end every unscoped buffer of a core holds the last boundary's
  contents: the launch memory carried through the first region's write-backs, the first stretch, the second region's
  write-backs, the second stretch and the third region's write-backs. Read at the result buffer, that is what the
  third region's output window leaves; read at an argument, it is the argument as launched, since no region and no
  host operation writes one.
-/
import proofs.«106513_j73538430042257_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_boundary : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Result

end
-- ==== Proof.Layers.lean ====
/-
  The dense layers of a two-block mean-aggregating graph network, as functions of whole arrays over the extended
  reals, entry by entry.

  An entry of a matrix product is the sum over the 128 shared coordinates of row times column. The first layer
  adds a bias along the lanes and clamps below at zero: entry (r, c) is max (Σₖ x(r,k)·w(k,c) + b(c)) 0. A
  combining layer adds two such products, one of the nodes' own rows and one of their aggregated neighbours' rows,
  each with its bias, grouped as ((Σₖ s(r,k)·u(k,c) + p(c)) + Σₖ t(r,k)·v(k,c)) + q(c); the first block clamps
  the result below at zero, the last block does not. Sums and products are those of the extended reals, so no
  entry is assumed finite. The zero of the clamp is kept as the float word of +0.0 and is never evaluated.
-/
import Idealize.ShloMosaic.PureOps.Ideal
import Idealize.ShloMosaic.Lib.ValueIdx

noncomputable section

namespace Cert.Layer

open Idealize.ShloMosaic Idealize.ShloMosaic.ValueIdx

/-- The float word of +0.0 read as an extended real. -/
abbrev zeroWord : Ideal .f32 := Ideal.ofBits .f32 0x00000000#32

/-- Entry (r, c) of the product of an n-by-128 matrix with a 128-by-128 matrix. -/
def prod {n : ℕ} (x : FVec Ideal ⟨2, ![n, 128]⟩ .f32) (w : FVec Ideal ⟨2, ![128, 128]⟩ .f32) (r : Fin n) (c : Fin 128) :
    Ideal .f32 :=
  ∑ k : Fin 128, x (ix2 r k) * w (ix2 k c)

/-- The first layer: product, bias along the lanes, clamp below at zero. -/
def dense {n : ℕ} (x : FVec Ideal ⟨2, ![n, 128]⟩ .f32) (w : FVec Ideal ⟨2, ![128, 128]⟩ .f32)
    (b : FVec Ideal ⟨1, ![128]⟩ .f32) : FVec Ideal ⟨2, ![n, 128]⟩ .f32 :=
  fun i => max (prod x w (i 0) (i 1) + b (ix1 (i 1))) zeroWord

/-- A combining layer without the clamp: own rows and neighbour rows, each through its matrix and bias. -/
def combine {n : ℕ} (s t : FVec Ideal ⟨2, ![n, 128]⟩ .f32) (u : FVec Ideal ⟨2, ![128, 128]⟩ .f32)
    (p : FVec Ideal ⟨1, ![128]⟩ .f32) (v : FVec Ideal ⟨2, ![128, 128]⟩ .f32) (q : FVec Ideal ⟨1, ![128]⟩ .f32) :
    FVec Ideal ⟨2, ![n, 128]⟩ .f32 :=
  fun i => ((prod s u (i 0) (i 1) + p (ix1 (i 1))) + prod t v (i 0) (i 1)) + q (ix1 (i 1))

/-- A combining layer with the clamp below at zero. -/
def combineClamp {n : ℕ} (s t : FVec Ideal ⟨2, ![n, 128]⟩ .f32) (u : FVec Ideal ⟨2, ![128, 128]⟩ .f32)
    (p : FVec Ideal ⟨1, ![128]⟩ .f32) (v : FVec Ideal ⟨2, ![128, 128]⟩ .f32) (q : FVec Ideal ⟨1, ![128]⟩ .f32) :
    FVec Ideal ⟨2, ![n, 128]⟩ .f32 :=
  fun i => max (combine s t u p v q i) zeroWord

end Cert.Layer

end
-- ==== Proof.RefLayers.lean ====
/-
  The reference's three dense stages are the layer functions, entry by entry.

  Each stage of the reference is read at an entry (r, c): a matrix product is the sum over the 128 shared
  coordinates of row r times column c, a bias broadcast along the rows is read at lane c, and the clamp compares with
  the float word of +0.0. In the two combining stages the operands — the first 50000 (then 10000) rows of the
  previous stage and the mean of the gathered neighbour rows — are kept as the stages they are and never opened: the
  layer function is applied to them as it is to any array.
-/
import proofs.«106513_j73538430042257_1_alg».proof.Proof.Gen.ReferenceIdeal.Read
import proofs.«106513_j73538430042257_1_alg».proof.Proof.Layers

noncomputable section

namespace Cert.ReferenceIdeal.Layers

open Cert.ReferenceIdeal Cert.ReferenceIdeal.Read Cert.Layer Idealize.ShloMosaic Idealize.ShloMosaic.ValueIdx

/-- The first stage — product with the first matrix, bias, clamp — is `dense`. -/
theorem first_eq (x0 : (⟨S200000x128, .f32⟩ : BufTy).Contents (Elt Ideal)) (x5 : (⟨S128x128, .f32⟩ : BufTy).Contents (Elt Ideal)) (x6 : (⟨S128, .f32⟩ : BufTy).Contents (Elt Ideal)) :
    val_main_v4 (F := Ideal) x0 x5 x6 = dense (n := 200000) x0 x5 x6 := by
  funext i
  obtain ⟨r, c, rfl⟩ : ∃ (r : Fin 200000) (c : Fin 128), i = ix2 r c := ⟨i 0, i 1, eq_ix2 i⟩
  rw [val_main_v4_apply, val_main_v3_apply, val_main_v0_apply, val_main_v2_apply, val_main_v1_apply,
    val_main_call0_v0_apply, val_main_call0_cst_apply]
  have el : ∀ k : Fin 128, lidx_main_v0 (ix2 r c) k = ix2 r k := fun k => funext fun a => Fin.ext (by
    match a with | ⟨0, _⟩ => rfl | ⟨1, _⟩ => rfl)
  have er : ∀ k : Fin 128, ridx_main_v0 (ix2 r c) k = ix2 k c := fun k => funext fun a => Fin.ext (by
    match a with | ⟨0, _⟩ => rfl | ⟨1, _⟩ => rfl)
  have eb : idx_main_v1 (idx_main_v2 (ix2 r c)) = ix1 c := funext fun a => Fin.ext (by
    match a with | ⟨0, _⟩ => rfl)
  simp only [el, er, eb]
  rfl

/-- The first block's combining stage, with its clamp, is `combineClamp` of the first 50000 rows of the first
    stage and of the neighbours' mean. -/
theorem second_eq (x0 : (⟨S200000x128, .f32⟩ : BufTy).Contents (Elt Ideal)) (x1 x2 : (⟨S800000, .i32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v34 (F := Ideal) x0 x1 x2 x5 x6 x7 x8 x9 x10
      = combineClamp (n := 50000) (val_main_v24 (F := Ideal) x0 x5 x6) (val_main_v23 (F := Ideal) x0 x1 x2 x5 x6) x7 x8 x9 x10 := by
  funext i
  obtain ⟨r, c, rfl⟩ : ∃ (r : Fin 50000) (c : Fin 128), i = ix2 r c := ⟨i 0, i 1, eq_ix2 i⟩
  rw [val_main_v34_apply, val_main_v33_apply, val_main_v30_apply, val_main_v28_apply, val_main_v25_apply,
    val_main_v27_apply, val_main_v26_apply, val_main_v29_apply, val_main_v32_apply, val_main_v31_apply,
    val_main_call1_v0_apply, val_main_call1_cst_apply]
  generalize val_main_v24 (F := Ideal) x0 x5 x6 = hs
  generalize val_main_v23 (F := Ideal) x0 x1 x2 x5 x6 = hn
  have el : ∀ k : Fin 128, lidx_main_v25 (ix2 r c) k = ix2 r k := fun k => funext fun a => Fin.ext (by
    match a with | ⟨0, _⟩ => rfl | ⟨1, _⟩ => rfl)
  have er : ∀ k : Fin 128, ridx_main_v25 (ix2 r c) k = ix2 k c := fun k => funext fun a => Fin.ext (by
    match a with | ⟨0, _⟩ => rfl | ⟨1, _⟩ => rfl)
  have el' : ∀ k : Fin 128, lidx_main_v29 (ix2 r c) k = ix2 r k := fun k => funext fun a => Fin.ext (by
    match a with | ⟨0, _⟩ => rfl | ⟨1, _⟩ => rfl)
  have er' : ∀ k : Fin 128, ridx_main_v29 (ix2 r c) k = ix2 k c := fun k => funext fun a => Fin.ext (by
    match a with | ⟨0, _⟩ => rfl | ⟨1, _⟩ => rfl)
  have eb : idx_main_v26 (idx_main_v27 (ix2 r c)) = ix1 c := funext fun a => Fin.ext (by
    match a with | ⟨0, _⟩ => rfl)
  have eb' : idx_main_v31 (idx_main_v32 (ix2 r c)) = ix1 c := funext fun a => Fin.ext (by
    match a with | ⟨0, _⟩ => rfl)
  simp only [el, er, el', er', eb, eb']
  rfl

/-- The last block's combining stage, without a clamp, is `combine` of the first 10000 rows of the previous stage
    and of the neighbours' mean. -/
theorem third_eq (x0 : (⟨S200000x128, .f32⟩ : BufTy).Contents (Elt Ideal)) (x1 x2 : (⟨S800000, .i32⟩ : BufTy).Contents (Elt Ideal)) (x3 x4 : (⟨S160000, .i32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v63 (F := Ideal) x0 x1 x2 x3 x4 x5 x6 x7 x8 x9 x10
      = combine (n := 10000) (val_main_v54 (F := Ideal) x0 x1 x2 x5 x6 x7 x8 x9 x10)
          (val_main_v53 (F := Ideal) x0 x1 x2 x3 x4 x5 x6 x7 x8 x9 x10) x7 x8 x9 x10 := by
  funext i
  obtain ⟨r, c, rfl⟩ : ∃ (r : Fin 10000) (c : Fin 128), i = ix2 r c := ⟨i 0, i 1, eq_ix2 i⟩
  rw [val_main_v63_apply, val_main_v60_apply, val_main_v58_apply, val_main_v55_apply,
    val_main_v57_apply, val_main_v56_apply, val_main_v59_apply, val_main_v62_apply, val_main_v61_apply]
  generalize val_main_v54 (F := Ideal) x0 x1 x2 x5 x6 x7 x8 x9 x10 = hs
  generalize val_main_v53 (F := Ideal) x0 x1 x2 x3 x4 x5 x6 x7 x8 x9 x10 = hn
  have el : ∀ k : Fin 128, lidx_main_v55 (ix2 r c) k = ix2 r k := fun k => funext fun a => Fin.ext (by
    match a with | ⟨0, _⟩ => rfl | ⟨1, _⟩ => rfl)
  have er : ∀ k : Fin 128, ridx_main_v55 (ix2 r c) k = ix2 k c := fun k => funext fun a => Fin.ext (by
    match a with | ⟨0, _⟩ => rfl | ⟨1, _⟩ => rfl)
  have el' : ∀ k : Fin 128, lidx_main_v59 (ix2 r c) k = ix2 r k := fun k => funext fun a => Fin.ext (by
    match a with | ⟨0, _⟩ => rfl | ⟨1, _⟩ => rfl)
  have er' : ∀ k : Fin 128, ridx_main_v59 (ix2 r c) k = ix2 k c := fun k => funext fun a => Fin.ext (by
    match a with | ⟨0, _⟩ => rfl | ⟨1, _⟩ => rfl)
  have eb : idx_main_v56 (idx_main_v57 (ix2 r c)) = ix1 c := funext fun a => Fin.ext (by
    match a with | ⟨0, _⟩ => rfl)
  have eb' : idx_main_v61 (idx_main_v62 (ix2 r c)) = ix1 c := funext fun a => Fin.ext (by
    match a with | ⟨0, _⟩ => rfl)
  simp only [el, er, el', er', eb, eb']
  rfl

end Cert.ReferenceIdeal.Layers

end
-- ==== Proof.Entry.lean ====
/-
  The three kernel bodies' stored values, read at an entry.

  Each body stores one value: a function of the blocks it loaded. At entry (p, q) of the block a matrix product
  accumulated into zeros is the sum over the 128 shared coordinates of row p of the left block times column q of the
  matrix, the narrowing of the operands to bf16 being the identity on the extended reals; a bias cast to a single
  row and broadcast over the block's rows is its lane q; sums of such arrays and the clamp at the float word of +0.0
  act entry by entry. So the first body's entry is max (Σₖ x(p,k)·w(k,q) + b(q)) 0 and a combining body's is
  ((Σₖ s(p,k)·u(k,q) + a(q)) + Σₖ t(p,k)·v(k,q)) + d(q), clamped in the first block and not in the last.
-/
import proofs.«106513_j73538430042257_1_alg».proof.Proof.Gen.KernelIdeal.Skeleton
import proofs.«106513_j73538430042257_1_alg».proof.Proof.Layers
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Cert.Layer Idealize.ShloMosaic Idealize.ShloMosaic.ValueIdx

/-! ## Blocks of 4000 rows -/

/-- The left operand's entry that output entry `i` and shared coordinate `q` meet lies in row `i 0`. -/
theorem lhs_row4000 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … at the shared coordinate. -/
theorem lhs_shared4000 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
/-- The right operand's entry lies at the shared coordinate … -/
theorem rhs_shared4000 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
/-- … in column `i 1`. -/
theorem rhs_col4000 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of 4000 rows times the 128-by-128 matrix, accumulated into zeros: entry (p, q) is the sum over the
    shared coordinate of row p times column q. The narrowing of both operands to bf16 is the identity on the
    extended reals. -/
theorem product4000 (x : FVec Ideal S4000x128 .f32) (w : FVec Ideal S128x128 .f32) (h : FTy.bits .bf16 < FTy.bits .f32)
    (p : Fin 4000) (q : Fin 128) :
    matmul (F := Ideal) dot_S4000x128_S128x128_S4000x128_1_0_0_1_n_n none (truncf .bf16 x h) (truncf .bf16 w h) (constant (F := Ideal) S4000x128 .f32 0x00000000#32) (ix2 p q)
      = ∑ k : Fin 128, x (ix2 p k) * w (ix2 k q) := by
  refine (Ideal.matmul_constant_zero_apply dot_S4000x128_S128x128_S4000x128_1_0_0_1_n_n none _ _ (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row4000 _ _
    | ⟨1, _⟩ => exact (lhs_shared4000 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_shared4000 _ _).trans hk
    | ⟨1, _⟩ => exact rhs_col4000 _ _)
  rw [el, er]
  rfl

/-- A bias of 128 lanes, cast to one row and broadcast over 4000 rows: entry (p, q) is lane q. -/
theorem bias4000 (b : FVec Ideal S128 .f32) (hc : S128.ShapeCasts S1x128) (hb : S1x128.Broadcasts S4000x128) (p : Fin 4000) (q : Fin 128) :
    broadcastTo S4000x128 (shapeCast S1x128 b hc) hb (ix2 p q) = b (ix1 q) :=
  (broadcastTo_1b_ab_apply (a := 4000) (b := 128) (shapeCast S1x128 b hc) hb p q).trans (shapeCast_a_1a_apply (a := 128) b hc 0 q)

/-- The first body's stored value at entry (p, q) of its block of 4000 rows. -/
theorem stored0 (x : Vec Ideal S4000x128 .f32) (w : Vec Ideal S128x128 .f32) (b : Vec Ideal S128 .f32) (p : Fin 4000) (q : Fin 128) :
    k0_pay1 (F := Ideal) x w b (ix2 p q) = max ((∑ k : Fin 128, x (ix2 p k) * w (ix2 k q)) + b (ix1 q)) zeroWord := by
  unfold k0_pay1
  refine congrArg (max · zeroWord) ?_
  exact congrArg₂ (· + ·) (product4000 x w _ p q) (bias4000 b _ _ p q)

/-! ## Blocks of 5000 rows -/

/-- The left operand's entry that output entry `i` and shared coordinate `q` meet lies in row `i 0`. -/
theorem lhs_row5000 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the shared coordinate. -/
theorem lhs_shared5000 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's entry lies at the shared coordinate … -/
theorem rhs_shared5000 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- … in column `i 1`. -/
theorem rhs_col5000 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times the 128-by-128 matrix, accumulated into zeros: entry (p, q) is the sum over the
    shared coordinate of row p times column q. The narrowing of both operands to bf16 is the identity on the
    extended reals. -/
theorem product5000 (x : FVec Ideal S5000x128 .f32) (w : FVec Ideal S128x128 .f32) (h : FTy.bits .bf16 < FTy.bits .f32)
    (p : Fin 5000) (q : Fin 128) :
    matmul (F := Ideal) dot_S5000x128_S128x128_S5000x128_1_0_0_1_n_n none (truncf .bf16 x h) (truncf .bf16 w h) (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row5000 _ _
    | ⟨1, _⟩ => exact (lhs_shared5000 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_shared5000 _ _).trans hk
    | ⟨1, _⟩ => exact rhs_col5000 _ _)
  rw [el, er]
  rfl

/-- A bias of 128 lanes, cast to one row and broadcast over 5000 rows: entry (p, q) is lane q. -/
theorem bias5000 (b : FVec Ideal S128 .f32) (hc : S128.ShapeCasts S1x128) (hb : S1x128.Broadcasts S5000x128) (p : Fin 5000) (q : Fin 128) :
    broadcastTo S5000x128 (shapeCast S1x128 b hc) hb (ix2 p q) = b (ix1 q) :=
  (broadcastTo_1b_ab_apply (a := 5000) (b := 128) (shapeCast S1x128 b hc) hb p q).trans (shapeCast_a_1a_apply (a := 128) b hc 0 q)

/-- The first block's combining body's stored value at entry (p, q) of its block of 5000 rows: own rows `s` through `u` with
    bias `a`, neighbour rows `t` through `v` with bias `d`, clamped below at zero. The body's casts of a block to its own shape are the identity. -/
theorem stored1 (s t : Vec Ideal S5000x128 .f32) (u v : Vec Ideal S128x128 .f32) (a d : Vec Ideal S128 .f32) (p : Fin 5000) (q : Fin 128) :
    k1_pay1 (F := Ideal) s t u v a d (ix2 p q)
      = max ((((∑ k : Fin 128, s (ix2 p k) * u (ix2 k q)) + a (ix1 q)) + ∑ k : Fin 128, t (ix2 p k) * v (ix2 k q)) + d (ix1 q)) zeroWord := by
  unfold k1_pay1
  refine congrArg (max · zeroWord) ?_
  refine congrArg₂ (· + ·) (congrArg₂ (· + ·) (congrArg₂ (· + ·) ?_ (bias5000 a _ _ p q)) ?_) (bias5000 d _ _ p q)
  · refine (product5000 _ u _ p q).trans ?_
    rw [shapeCast_self]
  · refine (product5000 _ v _ p q).trans ?_
    rw [shapeCast_self]

/-! ## Blocks of 2000 rows -/

/-- The left operand's entry that output entry `i` and shared coordinate `q` meet lies in row `i 0`. -/
theorem lhs_row2000 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … at the shared coordinate. -/
theorem lhs_shared2000 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
/-- The right operand's entry lies at the shared coordinate … -/
theorem rhs_shared2000 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
/-- … in column `i 1`. -/
theorem rhs_col2000 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times the 128-by-128 matrix, accumulated into zeros: entry (p, q) is the sum over the
    shared coordinate of row p times column q. The narrowing of both operands to bf16 is the identity on the
    extended reals. -/
theorem product2000 (x : FVec Ideal S2000x128 .f32) (w : FVec Ideal S128x128 .f32) (h : FTy.bits .bf16 < FTy.bits .f32)
    (p : Fin 2000) (q : Fin 128) :
    matmul (F := Ideal) dot_S2000x128_S128x128_S2000x128_1_0_0_1_n_n none (truncf .bf16 x h) (truncf .bf16 w h) (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row2000 _ _
    | ⟨1, _⟩ => exact (lhs_shared2000 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_shared2000 _ _).trans hk
    | ⟨1, _⟩ => exact rhs_col2000 _ _)
  rw [el, er]
  rfl

/-- A bias of 128 lanes, cast to one row and broadcast over 2000 rows: entry (p, q) is lane q. -/
theorem bias2000 (b : FVec Ideal S128 .f32) (hc : S128.ShapeCasts S1x128) (hb : S1x128.Broadcasts S2000x128) (p : Fin 2000) (q : Fin 128) :
    broadcastTo S2000x128 (shapeCast S1x128 b hc) hb (ix2 p q) = b (ix1 q) :=
  (broadcastTo_1b_ab_apply (a := 2000) (b := 128) (shapeCast S1x128 b hc) hb p q).trans (shapeCast_a_1a_apply (a := 128) b hc 0 q)

/-- The last block's combining body's stored value at entry (p, q) of its block of 2000 rows: own rows `s` through `u` with
    bias `a`, neighbour rows `t` through `v` with bias `d`, not clamped. The body's casts of a block to its own shape are the identity. -/
theorem stored2 (s t : Vec Ideal S2000x128 .f32) (u v : Vec Ideal S128x128 .f32) (a d : Vec Ideal S128 .f32) (p : Fin 2000) (q : Fin 128) :
    k2_pay1 (F := Ideal) s t u v a d (ix2 p q)
      = (((∑ k : Fin 128, s (ix2 p k) * u (ix2 k q)) + a (ix1 q)) + ∑ k : Fin 128, t (ix2 p k) * v (ix2 k q)) + d (ix1 q) := by
  unfold k2_pay1
  refine congrArg₂ (· + ·) (congrArg₂ (· + ·) (congrArg₂ (· + ·) ?_ (bias2000 a _ _ p q)) ?_) (bias2000 d _ _ p q)
  · refine (product2000 _ u _ p q).trans ?_
    rw [shapeCast_self]
  · refine (product2000 _ v _ p q).trans ?_
    rw [shapeCast_self]

end Cert.KernelIdeal.Entry

end
-- ==== Proof.Region0.lean ====
/-
  The first region's output array is the first layer of its input arrays.

  The region runs the first body at 50 grid points. Point t reads rows 4000·t … 4000·t + 3999 of the node
  features, the whole first matrix and the whole first bias, and writes back rows 4000·t … 4000·t + 3999 of the
  output. Entry (p, q) of what it writes is max (Σₖ x(4000·t + p, k)·w(k, q) + b(q)) 0: entry (4000·t + p, q) of the
  layer function. The 50 blocks of 4000 rows tile the 200000 rows — row r lies in the block of point r / 4000 — so
  after the region the output array is the layer function of the arrays the region found, whatever they were.
-/
import proofs.«106513_j73538430042257_1_alg».proof.Proof.Gen.KernelIdeal.Frame
import proofs.«106513_j73538430042257_1_alg».proof.Proof.Entry
import proofs.«106513_j73538430042257_1_alg».proof.Proof.Layers
import Idealize.ShloMosaic.Lib.Pipeline.Value

set_option maxRecDepth 16384

noncomputable section

namespace Cert.KernelIdeal.Region0

open Cert.KernelIdeal Cert.KernelIdeal.Gen Cert.KernelIdeal.Entry Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The output buffer after the body, at entry (p, q), from the three loaded blocks. -/
theorem buffer_entry (x : Vec Ideal S4000x128 .f32) (w : Vec Ideal S128x128 .f32) (b : Vec Ideal S128 .f32) (p : Fin 4000) (q : Fin 128) :
    out0_3 x w b (ix2 p q) = max ((∑ k : Fin 128, x (ix2 p k) * w (ix2 k q)) + b (ix1 q)) zeroWord := by
  unfold out0_3
  rw [View.canon_unit_zero zeros2]
  simp only [View.ld_unit_zero (S := S4000x128) zeros2, View.ld_unit_zero (S := S128x128) zeros2, View.ld_unit_zero (S := S128) zeros1]
  exact stored0 x w b p q

/-- The layer function at an array entry, from a row of features, a column of the matrix and a lane of the bias
    that agree with the array's. -/
theorem layer_entry (X : FVec Ideal ⟨2, ![200000, 128]⟩ .f32) (W : FVec Ideal ⟨2, ![128, 128]⟩ .f32) (B : FVec Ideal ⟨1, ![128]⟩ .f32)
    (i : (⟨2, ![200000, 128]⟩ : Shape).Idx) (f g : Fin 128 → Ideal .f32) (e : Ideal .f32)
    (hf : ∀ k, f k = X (ix2 (i 0) k)) (hg : ∀ k, g k = W (ix2 k (i 1))) (he : e = B (ix1 (i 1))) :
    max ((∑ k : Fin 128, f k * g k) + e) zeroWord = dense X W B i := by
  unfold dense prod
  simp only [hf, hg, he]

/-- Where the windows' blocks sit at a point: the features' block moves with the output's along the rows, the
    matrix and the bias are whole, and the output's block index along the rows is the point. -/
theorem positions : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 49 :=
  (by decide +kernel : ∀ t : Fin grid0.N, _)

/-- Every block of rows is some point's. -/
theorem every_block : ∀ q0 : Fin 50, ∃ t : Fin cfg0.N, win0_3.index t = ![q0.val, 0] :=
  (by decide +kernel : ∀ q0 : Fin 50, ∃ t : Fin grid0.N, win0_3.index t = ![q0.val, 0])

/-- What point `t` writes back is block `t` of the layer function of the arrays the region found. -/
theorem flushed (c : Dev nD) (t : Fin cfg0.N) :
    (dat0 V c).flushed 3 t
      = ((cfg0.win 3).blk t).view.read (Elt Ideal) (dense (n := 200000) (V c main_arg0) (V c main_arg5) (V c main_arg6)) := by
  show (cfg0.win 3).cut (grid0.coords t) ((dat0 V c).after 3 t) = _
  rw [after0_3]
  obtain ⟨e0, e1, e2, e3, e4, e5, e6⟩ := positions t
  funext j
  obtain ⟨p, q, rfl⟩ : ∃ (p : Fin 4000) (q : Fin 128), j = ix2 p q := ⟨j 0, j 1, eq_ix2 j⟩
  show out0_3 (iblk0 V c 0 t) (iblk0 V c 1 t) (iblk0 V c 2 t) (ix2 p q)
    = dense (n := 200000) (V c main_arg0) (V c main_arg5) (V c main_arg6) (((cfg0.win 3).blk t).view.emb (ix2 p q))
  rw [buffer_entry]
  refine layer_entry (V c main_arg0) (V c main_arg5) (V c main_arg6) (((cfg0.win 3).blk t).view.emb (ix2 p q))
    (fun k => iblk0 V c 0 t (ix2 p k)) (fun k => iblk0 V c 1 t (ix2 k q)) (iblk0 V c 2 t (ix1 q)) (fun k => ?_) (fun k => ?_) ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * k.val = k.val; omega
  · show V c main_arg5 (((cfg0.win 1).blk t).view.emb (ix2 k q)) = V c main_arg5 _
    refine congrArg (V c main_arg5) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_arg6 (((cfg0.win 2).blk t).view.emb (ix1 q)) = V c main_arg6 _
    refine congrArg (V c main_arg6) (funext fun a => Fin.ext ?_)
    match a with
    | ⟨0, _⟩ => show win0_2.index t (0 : Fin 1) * 128 + 1 * q.val = win0_3.index t (1 : Fin 2) * 128 + 1 * q.val; omega

/-- An entry of the output array is in point `t`'s block iff each coordinate is in the block's range. -/
theorem mem_block (t : Fin cfg0.N) (i : S200000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v0).slice (win0_3.rect t)).set ↔ _
  rw [View.set_slice_whole, Rect.mem_set_unit]
  exact Iff.rfl

/-- Every entry of the output array is in the block of the point its row divided by 4000 names. -/
theorem covered (i : S200000x128.Idx) : ∃ t : Fin cfg0.N, (cfg0.win 3).flush t = true ∧ i ∈ ((cfg0.win 3).blk t).view.set := by
  have hi0 : (i 0).val < 200000 := (i 0).isLt
  have hi1 : (i 1).val < 128 := (i 1).isLt
  obtain ⟨t, ht⟩ := every_block ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- After the region the output array is the first layer of the arrays the region found. -/
theorem array (c : Dev nD) :
    (dat0 V c).arrAt 3 cfg0.N = dense (n := 200000) (V c main_arg0) (V c main_arg5) (V c main_arg6) :=
  (dat0 V c).arrAt_eq_of_cover 3 _ (fun t _ => flushed V c t) covered

end Cert.KernelIdeal.Region0

end
-- ==== Proof.Region1.lean ====
/-
  The second region's output array is the first block's combining layer of its input arrays.

  The region runs the combining body at 10 grid points. Point t reads rows 5000·t … 5000·t + 4999 of the nodes'
  own rows and of the neighbours' mean, both matrices and both biases whole, and writes back rows 5000·t … 5000·t + 4999
  of the output. Entry (p, q) of what it writes is ((Σₖ s(5000·t + p, k)·u(k, q) + a(q)) + Σₖ t(5000·t + p, k)·v(k, q)) + d(q),
  clamped below at zero: entry (5000·t + p, q) of the layer function. The 10 blocks of 5000 rows tile the 50000 rows — row r lies in
  the block of point r / 5000 — so after the region the output array is the layer function of the arrays the region
  found, whatever they were.
-/
import proofs.«106513_j73538430042257_1_alg».proof.Proof.Gen.KernelIdeal.Frame
import proofs.«106513_j73538430042257_1_alg».proof.Proof.Entry
import proofs.«106513_j73538430042257_1_alg».proof.Proof.Layers
import Idealize.ShloMosaic.Lib.Pipeline.Value

set_option maxRecDepth 16384

noncomputable section

namespace Cert.KernelIdeal.Region1

open Cert.KernelIdeal Cert.KernelIdeal.Gen Cert.KernelIdeal.Entry Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The output buffer after the body, at entry (p, q), from the six loaded blocks in window order: own rows,
    neighbour rows, own matrix, own bias, neighbour matrix, neighbour bias. -/
theorem buffer_entry (x0 x1 : Vec Ideal S5000x128 .f32) (x2 : Vec Ideal S128x128 .f32) (x3 : Vec Ideal S128 .f32)
    (x4 : Vec Ideal S128x128 .f32) (x5 : Vec Ideal S128 .f32) (p : Fin 5000) (q : Fin 128) :
    out1_6 x0 x1 x2 x3 x4 x5 (ix2 p q)
      = max ((((∑ k : Fin 128, x0 (ix2 p k) * x2 (ix2 k q)) + x3 (ix1 q)) + ∑ k : Fin 128, x1 (ix2 p k) * x4 (ix2 k q)) + x5 (ix1 q)) zeroWord := by
  unfold out1_6
  rw [View.canon_unit_zero zeros2]
  simp only [View.ld_unit_zero (S := S5000x128) zeros2, View.ld_unit_zero (S := S128x128) zeros2, View.ld_unit_zero (S := S128) zeros1]
  exact stored1 x0 x1 x2 x4 x3 x5 p q

/-- The layer function at an array entry, from rows, columns and lanes that agree with the arrays'. -/
theorem layer_entry (S T : FVec Ideal ⟨2, ![50000, 128]⟩ .f32) (U : FVec Ideal ⟨2, ![128, 128]⟩ .f32) (A : FVec Ideal ⟨1, ![128]⟩ .f32)
    (W : FVec Ideal ⟨2, ![128, 128]⟩ .f32) (D : FVec Ideal ⟨1, ![128]⟩ .f32)
    (i : (⟨2, ![50000, 128]⟩ : Shape).Idx) (f g f' g' : Fin 128 → Ideal .f32) (e e' : Ideal .f32)
    (hf : ∀ k, f k = S (ix2 (i 0) k)) (hg : ∀ k, g k = U (ix2 k (i 1))) (he : e = A (ix1 (i 1)))
    (hf' : ∀ k, f' k = T (ix2 (i 0) k)) (hg' : ∀ k, g' k = W (ix2 k (i 1))) (he' : e' = D (ix1 (i 1))) :
    max ((((∑ k : Fin 128, f k * g k) + e) + ∑ k : Fin 128, f' k * g' k) + e') zeroWord = combineClamp S T U A W D i := by
  unfold combineClamp combine prod
  simp only [hf, hg, he, hf', hg', he']

/-- Where the windows' blocks sit at a point: own rows and neighbour rows move with the output's block along the
    rows, the matrices and the biases are whole. -/
theorem positions : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (1 : Fin 2) = 0 :=
  (by decide +kernel : ∀ t : Fin grid1.N, _)

/-- Every block of rows is some point's. -/
theorem every_block : ∀ q0 : Fin 10, ∃ t : Fin cfg1.N, win1_6.index t = ![q0.val, 0] :=
  (by decide +kernel : ∀ q0 : Fin 10, ∃ t : Fin grid1.N, win1_6.index t = ![q0.val, 0])

/-- What point `t` writes back is block `t` of the layer function of the arrays the region found. -/
theorem flushed (c : Dev nD) (t : Fin cfg1.N) :
    (dat1 V c).flushed 6 t
      = ((cfg1.win 6).blk t).view.read (Elt Ideal) (combineClamp (n := 50000) (V c main_v20) (V c main_v19) (V c main_arg7) (V c main_arg8) (V c main_arg9) (V c main_arg10)) := by
  show (cfg1.win 6).cut (grid1.coords t) ((dat1 V c).after 6 t) = _
  rw [after1_6]
  obtain ⟨e0, e1, e2, e3, e4, e5, e6, e7, e8, e9, e10⟩ := positions t
  funext j
  obtain ⟨p, q, rfl⟩ : ∃ (p : Fin 5000) (q : Fin 128), j = ix2 p q := ⟨j 0, j 1, eq_ix2 j⟩
  show out1_6 (iblk1 V c 0 t) (iblk1 V c 1 t) (iblk1 V c 2 t) (iblk1 V c 3 t) (iblk1 V c 4 t) (iblk1 V c 5 t) (ix2 p q)
    = combineClamp (n := 50000) (V c main_v20) (V c main_v19) (V c main_arg7) (V c main_arg8) (V c main_arg9) (V c main_arg10) (((cfg1.win 6).blk t).view.emb (ix2 p q))
  rw [buffer_entry]
  refine layer_entry (V c main_v20) (V c main_v19) (V c main_arg7) (V c main_arg8) (V c main_arg9) (V c main_arg10) (((cfg1.win 6).blk t).view.emb (ix2 p q))
    (fun k => iblk1 V c 0 t (ix2 p k)) (fun k => iblk1 V c 2 t (ix2 k q)) (fun k => iblk1 V c 1 t (ix2 p k)) (fun k => iblk1 V c 4 t (ix2 k q))
    (iblk1 V c 3 t (ix1 q)) (iblk1 V c 5 t (ix1 q)) (fun k => ?_) (fun k => ?_) ?_ (fun k => ?_) (fun k => ?_) ?_
  · show V c main_v20 (((cfg1.win 0).blk t).view.emb (ix2 p k)) = V c main_v20 _
    refine congrArg (V c main_v20) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · show V c main_arg7 (((cfg1.win 2).blk t).view.emb (ix2 k q)) = V c main_arg7 _
    refine congrArg (V c main_arg7) (funext fun a => Fin.ext ?_)
    match a with
    | ⟨0, _⟩ => show win1_2.index t (0 : Fin 2) * 128 + 1 * k.val = k.val; omega
    | ⟨1, _⟩ => show win1_2.index t (1 : Fin 2) * 128 + 1 * q.val = win1_6.index t (1 : Fin 2) * 128 + 1 * q.val; omega
  · show V c main_arg8 (((cfg1.win 3).blk t).view.emb (ix1 q)) = V c main_arg8 _
    refine congrArg (V c main_arg8) (funext fun a => Fin.ext ?_)
    match a with
    | ⟨0, _⟩ => show win1_3.index t (0 : Fin 1) * 128 + 1 * q.val = win1_6.index t (1 : Fin 2) * 128 + 1 * q.val; omega
  · show V c main_v19 (((cfg1.win 1).blk t).view.emb (ix2 p k)) = V c main_v19 _
    refine congrArg (V c main_v19) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega
  · show V c main_arg9 (((cfg1.win 4).blk t).view.emb (ix2 k q)) = V c main_arg9 _
    refine congrArg (V c main_arg9) (funext fun a => Fin.ext ?_)
    match a with
    | ⟨0, _⟩ => show win1_4.index t (0 : Fin 2) * 128 + 1 * k.val = k.val; omega
    | ⟨1, _⟩ => show win1_4.index t (1 : Fin 2) * 128 + 1 * q.val = win1_6.index t (1 : Fin 2) * 128 + 1 * q.val; omega
  · show V c main_arg10 (((cfg1.win 5).blk t).view.emb (ix1 q)) = V c main_arg10 _
    refine congrArg (V c main_arg10) (funext fun a => Fin.ext ?_)
    match a with
    | ⟨0, _⟩ => show win1_5.index t (0 : Fin 1) * 128 + 1 * q.val = win1_6.index t (1 : Fin 2) * 128 + 1 * q.val; omega

/-- An entry of the output array is in point `t`'s block iff each coordinate is in the block's range. -/
theorem mem_block (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v21).slice (win1_6.rect t)).set ↔ _
  rw [View.set_slice_whole, Rect.mem_set_unit]
  exact Iff.rfl

/-- Every entry of the output array is in the block of the point its row divided by 5000 names. -/
theorem covered (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := every_block ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the region the output array is the combining layer of the arrays the region found. -/
theorem array (c : Dev nD) :
    (dat1 V c).arrAt 6 cfg1.N = combineClamp (n := 50000) (V c main_v20) (V c main_v19) (V c main_arg7) (V c main_arg8) (V c main_arg9) (V c main_arg10) :=
  (dat1 V c).arrAt_eq_of_cover 6 _ (fun t _ => flushed V c t) covered

end Cert.KernelIdeal.Region1

end
-- ==== Proof.Region2.lean ====
/-
  The third region's output array is the last block's combining layer of its input arrays.

  The region runs the combining body at 5 grid points. Point t reads rows 2000·t … 2000·t + 1999 of the nodes'
  own rows and of the neighbours' mean, both matrices and both biases whole, and writes back rows 2000·t … 2000·t + 1999
  of the output. Entry (p, q) of what it writes is ((Σₖ s(2000·t + p, k)·u(k, q) + a(q)) + Σₖ t(2000·t + p, k)·v(k, q)) + d(q): entry (2000·t + p, q) of the layer function. The 5 blocks of 2000 rows tile the 10000 rows — row r lies in
  the block of point r / 2000 — so after the region the output array is the layer function of the arrays the region
  found, whatever they were.
-/
import proofs.«106513_j73538430042257_1_alg».proof.Proof.Gen.KernelIdeal.Frame
import proofs.«106513_j73538430042257_1_alg».proof.Proof.Entry
import proofs.«106513_j73538430042257_1_alg».proof.Proof.Layers
import Idealize.ShloMosaic.Lib.Pipeline.Value

set_option maxRecDepth 16384

noncomputable section

namespace Cert.KernelIdeal.Region2

open Cert.KernelIdeal Cert.KernelIdeal.Gen Cert.KernelIdeal.Entry Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The output buffer after the body, at entry (p, q), from the six loaded blocks in window order: own rows,
    neighbour rows, own matrix, own bias, neighbour matrix, neighbour bias. -/
theorem buffer_entry (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    out2_6 x0 x1 x2 x3 x4 x5 (ix2 p q)
      = (((∑ k : Fin 128, x0 (ix2 p k) * x2 (ix2 k q)) + x3 (ix1 q)) + ∑ k : Fin 128, x1 (ix2 p k) * x4 (ix2 k q)) + x5 (ix1 q) := by
  unfold out2_6
  rw [View.canon_unit_zero zeros2]
  simp only [View.ld_unit_zero (S := S2000x128) zeros2, View.ld_unit_zero (S := S128x128) zeros2, View.ld_unit_zero (S := S128) zeros1]
  exact stored2 x0 x1 x2 x4 x3 x5 p q

/-- The layer function at an array entry, from rows, columns and lanes that agree with the arrays'. -/
theorem layer_entry (S T : FVec Ideal ⟨2, ![10000, 128]⟩ .f32) (U : FVec Ideal ⟨2, ![128, 128]⟩ .f32) (A : FVec Ideal ⟨1, ![128]⟩ .f32)
    (W : FVec Ideal ⟨2, ![128, 128]⟩ .f32) (D : FVec Ideal ⟨1, ![128]⟩ .f32)
    (i : (⟨2, ![10000, 128]⟩ : Shape).Idx) (f g f' g' : Fin 128 → Ideal .f32) (e e' : Ideal .f32)
    (hf : ∀ k, f k = S (ix2 (i 0) k)) (hg : ∀ k, g k = U (ix2 k (i 1))) (he : e = A (ix1 (i 1)))
    (hf' : ∀ k, f' k = T (ix2 (i 0) k)) (hg' : ∀ k, g' k = W (ix2 k (i 1))) (he' : e' = D (ix1 (i 1))) :
    (((∑ k : Fin 128, f k * g k) + e) + ∑ k : Fin 128, f' k * g' k) + e' = combine S T U A W D i := by
  unfold combine prod
  simp only [hf, hg, he, hf', hg', he']

/-- Where the windows' blocks sit at a point: own rows and neighbour rows move with the output's block along the
    rows, the matrices and the biases are whole. -/
theorem positions : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 1) = 0
    ∧ win2_6.index t (1 : Fin 2) = 0 :=
  (by decide +kernel : ∀ t : Fin grid2.N, _)

/-- Every block of rows is some point's. -/
theorem every_block : ∀ q0 : Fin 5, ∃ t : Fin cfg2.N, win2_6.index t = ![q0.val, 0] :=
  (by decide +kernel : ∀ q0 : Fin 5, ∃ t : Fin grid2.N, win2_6.index t = ![q0.val, 0])

/-- What point `t` writes back is block `t` of the layer function of the arrays the region found. -/
theorem flushed (c : Dev nD) (t : Fin cfg2.N) :
    (dat2 V c).flushed 6 t
      = ((cfg2.win 6).blk t).view.read (Elt Ideal) (combine (n := 10000) (V c main_v41) (V c main_v40) (V c main_arg7) (V c main_arg8) (V c main_arg9) (V c main_arg10)) := by
  show (cfg2.win 6).cut (grid2.coords t) ((dat2 V c).after 6 t) = _
  rw [after2_6]
  obtain ⟨e0, e1, e2, e3, e4, e5, e6, e7, e8, e9, e10⟩ := positions t
  funext j
  obtain ⟨p, q, rfl⟩ : ∃ (p : Fin 2000) (q : Fin 128), j = ix2 p q := ⟨j 0, j 1, eq_ix2 j⟩
  show out2_6 (iblk2 V c 0 t) (iblk2 V c 1 t) (iblk2 V c 2 t) (iblk2 V c 3 t) (iblk2 V c 4 t) (iblk2 V c 5 t) (ix2 p q)
    = combine (n := 10000) (V c main_v41) (V c main_v40) (V c main_arg7) (V c main_arg8) (V c main_arg9) (V c main_arg10) (((cfg2.win 6).blk t).view.emb (ix2 p q))
  rw [buffer_entry]
  refine layer_entry (V c main_v41) (V c main_v40) (V c main_arg7) (V c main_arg8) (V c main_arg9) (V c main_arg10) (((cfg2.win 6).blk t).view.emb (ix2 p q))
    (fun k => iblk2 V c 0 t (ix2 p k)) (fun k => iblk2 V c 2 t (ix2 k q)) (fun k => iblk2 V c 1 t (ix2 p k)) (fun k => iblk2 V c 4 t (ix2 k q))
    (iblk2 V c 3 t (ix1 q)) (iblk2 V c 5 t (ix1 q)) (fun k => ?_) (fun k => ?_) ?_ (fun k => ?_) (fun k => ?_) ?_
  · show V c main_v41 (((cfg2.win 0).blk t).view.emb (ix2 p k)) = V c main_v41 _
    refine congrArg (V c main_v41) (funext fun a => Fin.ext ?_)
    match a with
    | ⟨0, _⟩ => show win2_0.index t (0 : Fin 2) * 2000 + 1 * p.val = win2_6.index t (0 : Fin 2) * 2000 + 1 * p.val; omega
    | ⟨1, _⟩ => show win2_0.index t (1 : Fin 2) * 128 + 1 * k.val = k.val; omega
  · show V c main_arg7 (((cfg2.win 2).blk t).view.emb (ix2 k q)) = V c main_arg7 _
    refine congrArg (V c main_arg7) (funext fun a => Fin.ext ?_)
    match a with
    | ⟨0, _⟩ => show win2_2.index t (0 : Fin 2) * 128 + 1 * k.val = k.val; omega
    | ⟨1, _⟩ => show win2_2.index t (1 : Fin 2) * 128 + 1 * q.val = win2_6.index t (1 : Fin 2) * 128 + 1 * q.val; omega
  · show V c main_arg8 (((cfg2.win 3).blk t).view.emb (ix1 q)) = V c main_arg8 _
    refine congrArg (V c main_arg8) (funext fun a => Fin.ext ?_)
    match a with
    | ⟨0, _⟩ => show win2_3.index t (0 : Fin 1) * 128 + 1 * q.val = win2_6.index t (1 : Fin 2) * 128 + 1 * q.val; omega
  · show V c main_v40 (((cfg2.win 1).blk t).view.emb (ix2 p k)) = V c main_v40 _
    refine congrArg (V c main_v40) (funext fun a => Fin.ext ?_)
    match a with
    | ⟨0, _⟩ => show win2_1.index t (0 : Fin 2) * 2000 + 1 * p.val = win2_6.index t (0 : Fin 2) * 2000 + 1 * p.val; omega
    | ⟨1, _⟩ => show win2_1.index t (1 : Fin 2) * 128 + 1 * k.val = k.val; omega
  · show V c main_arg9 (((cfg2.win 4).blk t).view.emb (ix2 k q)) = V c main_arg9 _
    refine congrArg (V c main_arg9) (funext fun a => Fin.ext ?_)
    match a with
    | ⟨0, _⟩ => show win2_4.index t (0 : Fin 2) * 128 + 1 * k.val = k.val; omega
    | ⟨1, _⟩ => show win2_4.index t (1 : Fin 2) * 128 + 1 * q.val = win2_6.index t (1 : Fin 2) * 128 + 1 * q.val; omega
  · show V c main_arg10 (((cfg2.win 5).blk t).view.emb (ix1 q)) = V c main_arg10 _
    refine congrArg (V c main_arg10) (funext fun a => Fin.ext ?_)
    match a with
    | ⟨0, _⟩ => show win2_5.index t (0 : Fin 1) * 128 + 1 * q.val = win2_6.index t (1 : Fin 2) * 128 + 1 * q.val; omega

/-- An entry of the output array is in point `t`'s block iff each coordinate is in the block's range. -/
theorem mem_block (t : Fin cfg2.N) (i : S10000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v42).slice (win2_6.rect t)).set ↔ _
  rw [View.set_slice_whole, Rect.mem_set_unit]
  exact Iff.rfl

/-- Every entry of the output array is in the block of the point its row divided by 2000 names. -/
theorem covered (i : S10000x128.Idx) : ∃ t : Fin cfg2.N, (cfg2.win 6).flush t = true ∧ i ∈ ((cfg2.win 6).blk t).view.set := by
  have hi0 : (i 0).val < 10000 := (i 0).isLt
  have hi1 : (i 1).val < 128 := (i 1).isLt
  obtain ⟨t, ht⟩ := every_block ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_block]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- After the region the output array is the combining layer of the arrays the region found. -/
theorem array (c : Dev nD) :
    (dat2 V c).arrAt 6 cfg2.N = combine (n := 10000) (V c main_v41) (V c main_v40) (V c main_arg7) (V c main_arg8) (V c main_arg9) (V c main_arg10) :=
  (dat2 V c).arrAt_eq_of_cover 6 _ (fun t _ => flushed V c t) covered

end Cert.KernelIdeal.Region2

end
-- ==== Proof.Chain.lean ====
/-
  The idealized kernel's result buffer, followed back through the program to the launch arguments.

  At the end of the run the result buffer holds what the third region's output window leaves: the last block's
  combining layer of the arrays that region found. Those are the first 10000 rows of the second region's output and
  the mean of its rows gathered along the second edge list, computed by the second stretch of host operations, with
  the two matrices and two biases as launched. The second region's output is the first block's combining layer, with
  its clamp, of the first 50000 rows of the first region's output and of the mean of its rows gathered along the
  first edge list, computed by the first stretch. The first region's output is the first layer of the node features.
  Each of these is, operation for operation, a stage of the reference's program applied to the launch arguments: the
  dense layers entry by entry, the gathers, sums over destinations, means and slices as the very same host
  operations applied to equal arrays, never opened. So the result buffer holds the reference's last stage of the
  launch arguments.
-/
import proofs.«106513_j73538430042257_1_alg».proof.Proof.Gen.KernelIdeal.Frame
import proofs.«106513_j73538430042257_1_alg».proof.Proof.Gen.ReferenceIdeal.Read
import proofs.«106513_j73538430042257_1_alg».proof.Proof.RefLayers
import proofs.«106513_j73538430042257_1_alg».proof.Proof.Region0
import proofs.«106513_j73538430042257_1_alg».proof.Proof.Region1
import proofs.«106513_j73538430042257_1_alg».proof.Proof.Region2
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The arguments a later segment reads are as launched at each boundary: no region writes one and no host
    operation does -/

theorem first_region_keeps1 : W1 m ρ c (Proc.devRef .tc main_arg1) = (m ((c : Thread nD τ).loc main_arg1)) :=
  (W1_of_ne m ρ c main_arg1 (by decide)).trans rfl
theorem first_region_keeps2 : W1 m ρ c (Proc.devRef .tc main_arg2) = (m ((c : Thread nD τ).loc main_arg2)) :=
  (W1_of_ne m ρ c main_arg2 (by decide)).trans rfl
theorem first_region_keeps3 : W1 m ρ c (Proc.devRef .tc main_arg3) = (m ((c : Thread nD τ).loc main_arg3)) :=
  (W1_of_ne m ρ c main_arg3 (by decide)).trans rfl
theorem first_region_keeps4 : W1 m ρ c (Proc.devRef .tc main_arg4) = (m ((c : Thread nD τ).loc main_arg4)) :=
  (W1_of_ne m ρ c main_arg4 (by decide)).trans rfl
theorem first_region_keeps7 : W1 m ρ c (Proc.devRef .tc main_arg7) = (m ((c : Thread nD τ).loc main_arg7)) :=
  (W1_of_ne m ρ c main_arg7 (by decide)).trans rfl
theorem first_region_keeps8 : W1 m ρ c (Proc.devRef .tc main_arg8) = (m ((c : Thread nD τ).loc main_arg8)) :=
  (W1_of_ne m ρ c main_arg8 (by decide)).trans rfl
theorem first_region_keeps9 : W1 m ρ c (Proc.devRef .tc main_arg9) = (m ((c : Thread nD τ).loc main_arg9)) :=
  (W1_of_ne m ρ c main_arg9 (by decide)).trans rfl
theorem first_region_keeps10 : W1 m ρ c (Proc.devRef .tc main_arg10) = (m ((c : Thread nD τ).loc main_arg10)) :=
  (W1_of_ne m ρ c main_arg10 (by decide)).trans rfl
theorem first_stretch_keeps3 : W2 m ρ c (Proc.devRef .tc main_arg3) = (m ((c : Thread nD τ).loc main_arg3)) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_region_keeps3 m ρ c)
theorem first_stretch_keeps4 : W2 m ρ c (Proc.devRef .tc main_arg4) = (m ((c : Thread nD τ).loc main_arg4)) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_region_keeps4 m ρ c)
theorem first_stretch_keeps7 : W2 m ρ c (Proc.devRef .tc main_arg7) = (m ((c : Thread nD τ).loc main_arg7)) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_region_keeps7 m ρ c)
theorem first_stretch_keeps8 : W2 m ρ c (Proc.devRef .tc main_arg8) = (m ((c : Thread nD τ).loc main_arg8)) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_region_keeps8 m ρ c)
theorem first_stretch_keeps9 : W2 m ρ c (Proc.devRef .tc main_arg9) = (m ((c : Thread nD τ).loc main_arg9)) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_region_keeps9 m ρ c)
theorem first_stretch_keeps10 : W2 m ρ c (Proc.devRef .tc main_arg10) = (m ((c : Thread nD τ).loc main_arg10)) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_region_keeps10 m ρ c)
theorem second_region_keeps3 : W3 m ρ c (Proc.devRef .tc main_arg3) = (m ((c : Thread nD τ).loc main_arg3)) :=
  (W3_of_ne m ρ c main_arg3 (by decide)).trans (first_stretch_keeps3 m ρ c)
theorem second_region_keeps4 : W3 m ρ c (Proc.devRef .tc main_arg4) = (m ((c : Thread nD τ).loc main_arg4)) :=
  (W3_of_ne m ρ c main_arg4 (by decide)).trans (first_stretch_keeps4 m ρ c)
theorem second_region_keeps7 : W3 m ρ c (Proc.devRef .tc main_arg7) = (m ((c : Thread nD τ).loc main_arg7)) :=
  (W3_arr m ρ c 2).trans (((dat1 (V2 m ρ) c).arrAt_in 2 rfl _).trans ((A_eq1 (V2 m ρ) c 2).trans (first_stretch_keeps7 m ρ c)))
theorem second_region_keeps8 : W3 m ρ c (Proc.devRef .tc main_arg8) = (m ((c : Thread nD τ).loc main_arg8)) :=
  (W3_arr m ρ c 3).trans (((dat1 (V2 m ρ) c).arrAt_in 3 rfl _).trans ((A_eq1 (V2 m ρ) c 3).trans (first_stretch_keeps8 m ρ c)))
theorem second_region_keeps9 : W3 m ρ c (Proc.devRef .tc main_arg9) = (m ((c : Thread nD τ).loc main_arg9)) :=
  (W3_arr m ρ c 4).trans (((dat1 (V2 m ρ) c).arrAt_in 4 rfl _).trans ((A_eq1 (V2 m ρ) c 4).trans (first_stretch_keeps9 m ρ c)))
theorem second_region_keeps10 : W3 m ρ c (Proc.devRef .tc main_arg10) = (m ((c : Thread nD τ).loc main_arg10)) :=
  (W3_arr m ρ c 5).trans (((dat1 (V2 m ρ) c).arrAt_in 5 rfl _).trans ((A_eq1 (V2 m ρ) c 5).trans (first_stretch_keeps10 m ρ c)))
theorem second_stretch_keeps7 : W4 m ρ c (Proc.devRef .tc main_arg7) = (m ((c : Thread nD τ).loc main_arg7)) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (second_region_keeps7 m ρ c)
theorem second_stretch_keeps8 : W4 m ρ c (Proc.devRef .tc main_arg8) = (m ((c : Thread nD τ).loc main_arg8)) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (second_region_keeps8 m ρ c)
theorem second_stretch_keeps9 : W4 m ρ c (Proc.devRef .tc main_arg9) = (m ((c : Thread nD τ).loc main_arg9)) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (second_region_keeps9 m ρ c)
theorem second_stretch_keeps10 : W4 m ρ c (Proc.devRef .tc main_arg10) = (m ((c : Thread nD τ).loc main_arg10)) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (second_region_keeps10 m ρ c)

/-! ## The first region -/

/-- After the first region its output buffer holds the reference's first stage of the launch arguments. -/
theorem first_output : W1 m ρ c (Proc.devRef .tc main_v0) = Cert.ReferenceIdeal.Read.val_main_v4 (F := Ideal) (m ((c : Thread nD τ).loc main_arg0)) (m ((c : Thread nD τ).loc main_arg5)) (m ((c : Thread nD τ).loc main_arg6)) :=
  (W1_arr m ρ c 3).trans ((Cert.KernelIdeal.Region0.array (V0 m ρ) c).trans
    (Cert.ReferenceIdeal.Layers.first_eq (m ((c : Thread nD τ).loc main_arg0)) (m ((c : Thread nD τ).loc main_arg5)) (m ((c : Thread nD τ).loc main_arg6))).symm)

/-! ## The first stretch -/

/-- The first 50000 rows of it: the reference's slice stage. -/
theorem first_rows : V2 m ρ c main_v20 = Cert.ReferenceIdeal.Read.val_main_v24 (F := Ideal) (m ((c : Thread nD τ).loc main_arg0)) (m ((c : Thread nD τ).loc main_arg5)) (m ((c : Thread nD τ).loc main_arg6)) := by
  show StableHlo.after hostOps1 (W1 m ρ c) (Proc.devRef .tc main_v20) = _
  after_results_simp
  rw [first_output]
  rfl

/-- The mean over each destination of its rows gathered along the first edge list: the reference's stage, the same
    host operations applied to equal arrays. -/
theorem first_mean : V2 m ρ c main_v19 = Cert.ReferenceIdeal.Read.val_main_v23 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  show StableHlo.after hostOps1 (W1 m ρ c) (Proc.devRef .tc main_v19) = _
  after_results_simp
  rw [first_output, first_region_keeps1, first_region_keeps2]
  simp only [Cert.ReferenceIdeal.Read.val_main_v23, Cert.ReferenceIdeal.Read.val_main_v14, Cert.ReferenceIdeal.Read.val_main_v22, Cert.ReferenceIdeal.Read.val_main_v21, Cert.ReferenceIdeal.Read.val_main_v20, Cert.ReferenceIdeal.Read.val_main_v18, Cert.ReferenceIdeal.Read.val_main_v19, Cert.ReferenceIdeal.Read.val_main_v17, Cert.ReferenceIdeal.Read.val_main_v16, Cert.ReferenceIdeal.Read.val_main_v15, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_c, Cert.ReferenceIdeal.Read.val_main_c_0, Cert.ReferenceIdeal.Read.val_main_cst, Cert.ReferenceIdeal.Read.val_main_cst_1, Cert.ReferenceIdeal.Read.val_main_cst_2, Cert.ReferenceIdeal.Read.val_main_cst_3]
  rfl

/-! ## The second region -/

/-- After the second region its output buffer holds the reference's clamped combining stage of the launch arguments. -/
theorem second_output : W3 m ρ c (Proc.devRef .tc main_v21) = Cert.ReferenceIdeal.Read.val_main_v34 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W3_arr m ρ c 6).trans ((Cert.KernelIdeal.Region1.array (V2 m ρ) c).trans ?_)
  rw [first_rows, first_mean]
  rw [show V2 m ρ c main_arg7 = (m ((c : Thread nD τ).loc main_arg7)) from first_stretch_keeps7 m ρ c, show V2 m ρ c main_arg8 = (m ((c : Thread nD τ).loc main_arg8)) from first_stretch_keeps8 m ρ c,
    show V2 m ρ c main_arg9 = (m ((c : Thread nD τ).loc main_arg9)) from first_stretch_keeps9 m ρ c, show V2 m ρ c main_arg10 = (m ((c : Thread nD τ).loc main_arg10)) from first_stretch_keeps10 m ρ c]
  exact (Cert.ReferenceIdeal.Layers.second_eq (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

/-! ## The second stretch -/

/-- The first 10000 rows of it: the reference's slice stage. -/
theorem second_rows : V4 m ρ c main_v41 = Cert.ReferenceIdeal.Read.val_main_v54 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W3 m ρ c) (Proc.devRef .tc main_v41) = _
  after_results_simp
  rw [second_output]
  rfl

/-- The mean over each destination of its rows gathered along the second edge list: the reference's stage. -/
theorem second_mean : V4 m ρ c main_v40 = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W3 m ρ c) (Proc.devRef .tc main_v40) = _
  after_results_simp
  rw [second_output, second_region_keeps3, second_region_keeps4]
  simp only [Cert.ReferenceIdeal.Read.val_main_v53, Cert.ReferenceIdeal.Read.val_main_v44, Cert.ReferenceIdeal.Read.val_main_v52, Cert.ReferenceIdeal.Read.val_main_v51, Cert.ReferenceIdeal.Read.val_main_v50, Cert.ReferenceIdeal.Read.val_main_v48, Cert.ReferenceIdeal.Read.val_main_v49, Cert.ReferenceIdeal.Read.val_main_v47, Cert.ReferenceIdeal.Read.val_main_v46, Cert.ReferenceIdeal.Read.val_main_v45, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_c_4, Cert.ReferenceIdeal.Read.val_main_c_5, Cert.ReferenceIdeal.Read.val_main_cst_6, Cert.ReferenceIdeal.Read.val_main_cst_7, Cert.ReferenceIdeal.Read.val_main_cst_8, Cert.ReferenceIdeal.Read.val_main_cst_9]
  rfl

/-! ## The third region: the result -/

/-- At the end the result buffer holds the reference's last stage of the launch arguments. -/
theorem result : W5 m ρ c (Proc.devRef .tc main_v42) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W5_arr m ρ c 6).trans ((Cert.KernelIdeal.Region2.array (V4 m ρ) c).trans ?_)
  rw [second_rows, second_mean]
  rw [show V4 m ρ c main_arg7 = (m ((c : Thread nD τ).loc main_arg7)) from second_stretch_keeps7 m ρ c, show V4 m ρ c main_arg8 = (m ((c : Thread nD τ).loc main_arg8)) from second_stretch_keeps8 m ρ c,
    show V4 m ρ c main_arg9 = (m ((c : Thread nD τ).loc main_arg9)) from second_stretch_keeps9 m ρ c, show V4 m ρ c main_arg10 = (m ((c : Thread nD τ).loc main_arg10)) from second_stretch_keeps10 m ρ c]
  exact (Cert.ReferenceIdeal.Layers.third_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

end Cert.KernelIdeal.Chain

end
-- ==== Proof.lean ====
/-
  A two-block mean-aggregating graph network: the kernel against its reference, over the extended reals.

  Both programs compute h = max (x·W₀ + b₀) 0 over 200000 nodes; then, for the 50000 destination nodes of the first
  block, the mean n of the rows of h gathered along the first edge list (the sum over the edges into a destination,
  divided by the larger of the in-degree and one) and h₁ = max (((h[:50000]·Wₛ + bₛ) + n·Wₙ) + bₙ) 0; then, for the
  10000 destinations of the last block, the same mean n₁ of rows of h₁ along the second edge list and the result
  ((h₁[:10000]·Wₛ + bₛ) + n₁·Wₙ) + bₙ, not clamped. The kernel computes the three dense layers in three regions, block
  of rows by block of rows, its operands narrowed to bf16 before each matrix product — the identity on the extended
  reals — and each product accumulated into zeros; between the regions it applies the very host operations the
  reference applies (index wrap-around, gather, the two sums over destinations, the clamp of the degree, the
  quotient, the slice). The two sides group their sums the same way, so no law that fails at an infinity is used and
  the precondition that the inputs are finite is never opened.

  The kernel's run names the result buffer at the last segment boundary's contents (KernelRun); followed back
  through the three regions and the two stretches of host operations it is the reference's last stage of the launch
  arguments (Chain, over Region0–2 for the regions, Entry for the bodies' stored values, RefLayers for the
  reference's dense stages, Layers for the layer functions). The reference's run is its generated one. The word-level
  kernel and the idealized kernel leave their arguments unchanged by their generated frames; the idealization rewrote
  no operation, so there is nothing to preserve beyond the program's own text.
-/
import proofs.«106513_j73538430042257_1_alg».proof.Defs
import proofs.«106513_j73538430042257_1_alg».proof.Proof.Gen.Kernel
import proofs.«106513_j73538430042257_1_alg».proof.Proof.Gen.Kernel.Skeleton
import proofs.«106513_j73538430042257_1_alg».proof.Proof.Gen.Kernel.Launch
import proofs.«106513_j73538430042257_1_alg».proof.Proof.Gen.Kernel.Points
import proofs.«106513_j73538430042257_1_alg».proof.Proof.Gen.Kernel.Frame
import proofs.«106513_j73538430042257_1_alg».proof.Proof.Gen.KernelIdeal
import proofs.«106513_j73538430042257_1_alg».proof.Proof.Gen.KernelIdeal.Skeleton
import proofs.«106513_j73538430042257_1_alg».proof.Proof.Gen.KernelIdeal.Launch
import proofs.«106513_j73538430042257_1_alg».proof.Proof.Gen.KernelIdeal.Points
import proofs.«106513_j73538430042257_1_alg».proof.Proof.Gen.KernelIdeal.Frame
import proofs.«106513_j73538430042257_1_alg».proof.Proof.Gen.ReferenceIdeal
import proofs.«106513_j73538430042257_1_alg».proof.Proof.Gen.ReferenceIdeal.Run
import proofs.«106513_j73538430042257_1_alg».proof.Proof.Gen.ReferenceIdeal.Read
import proofs.«106513_j73538430042257_1_alg».proof.Proof.Gen.Pre_finite_inputs
import proofs.«106513_j73538430042257_1_alg».proof.Proof.KernelRun
import proofs.«106513_j73538430042257_1_alg».proof.Proof.Chain
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the reference's last stage of those
    arguments in their result buffers: the kernel by following its result buffer back through its regions, the
    reference by its run. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.Result.run_boundary (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v63_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
